-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩

abbrev nBuf : Space → Nat
  | .hbm => 111
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x40, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x40, .f32⟩
  | .hbm, ⟨101, _⟩ => ⟨S850000x1, .f32⟩
  | .hbm, ⟨102, _⟩ => ⟨S850000x40, .f32⟩
  | .hbm, ⟨103, _⟩ => ⟨S850000x40, .f32⟩
  | .hbm, ⟨104, _⟩ => ⟨S_, .f32⟩
  | .hbm, ⟨105, _⟩ => ⟨S50000x40, .f32⟩
  | .hbm, ⟨106, _⟩ => ⟨S850000x1, .i32⟩
  | .hbm, ⟨107, _⟩ => ⟨S50000x40, .f32⟩
  | .hbm, ⟨108, _⟩ => ⟨S1x40, .f32⟩
  | .hbm, ⟨109, _⟩ => ⟨S50000x40, .f32⟩
  | .hbm, ⟨110, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 149
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x128, .f32⟩
  | 100 => ⟨S850000x1, .f32⟩
  | 101 => ⟨S850000x128, .f32⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S1x128, .f32⟩
  | 108 => ⟨S50000x128, .f32⟩
  | 109 => ⟨S50000x128, .f32⟩
  | 110 => ⟨S50000x40, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x256, .f32⟩

abbrev hbmTy0_1 (i : Nat) : BufTy := match i % 128 with
  | 0 => ⟨S850000, .f32⟩
  | 1 => ⟨S850000, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000x40, .f32⟩
  | 11 => ⟨S850000x1, .f32⟩
  | 12 => ⟨S850000x40, .f32⟩
  | 13 => ⟨S850000x40, .f32⟩
  | 14 => ⟨S_, .f32⟩
  | 15 => ⟨S50000x40, .f32⟩
  | 16 => ⟨S850000x1, .i32⟩
  | 17 => ⟨S50000x40, .f32⟩
  | 18 => ⟨S1x40, .f32⟩
  | 19 => ⟨S50000x40, .f32⟩
  | 20 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_17 : Ref sig .tc := ⟨.hbm, 111, rfl⟩
abbrev main_v82 : Ref sig .tc := ⟨.hbm, 112, rfl⟩
abbrev main_v83 : Ref sig .tc := ⟨.hbm, 113, rfl⟩
abbrev main_c_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_c_19 : Ref sig .tc := ⟨.hbm, 120, rfl⟩
abbrev main_v89 : Ref sig .tc := ⟨.hbm, 121, rfl⟩
abbrev main_v90 : Ref sig .tc := ⟨.hbm, 122, rfl⟩
abbrev main_c_20 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_21 : Ref sig .tc := ⟨.hbm, 130, rfl⟩
abbrev main_v97 : Ref sig .tc := ⟨.hbm, 131, rfl⟩
abbrev main_v98 : Ref sig .tc := ⟨.hbm, 132, rfl⟩
abbrev main_c_22 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  dot_S50000x256_S256x128_S50000x128_1_0_0_1_n_n_wf : DotDims.WF S50000x256 S256x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The whole program's run, with its result named.

  The program is nine segments: stretches of host operations around three matrix-product regions. Each segment takes
  the buffers from one boundary's contents to the next, so at the end every buffer holds the last boundary's contents:
  the arguments as launched, and the result buffer at the last stretch of host operations applied to what the third
  region left.
-/
import proofs.«106534_j31774168055916_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched. -/
theorem run_value : θ_run defs (onTc (τ := τ) (main (F := F))) ⟨m, fun _ => 0, ρ⟩ (fun r => ∀ c : Dev nD,
      r.2.mem ((c.tc : Thread nD τ).loc main_v82) = W9 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v82 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.KernelRun

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.LibProduct.lean ====
/-
  The product of a matrix of extended reals with another, as one function of its two factors.

  Entry (i, j) of the product of an [M, K] array with a [K, N] array is the sum over k of l (i, k) * r (k, j).
  On the extended reals a matrix unit's product into a zero accumulator and the host's dot_general (contraction of
  the left factor's columns with the right factor's rows, no batch axis) are both exactly this function.

  A block of consecutive rows of a product is the product of the same rows of the left factor with the whole right
  factor: each entry's sum runs over the whole shared axis and mentions one row of the left factor only. That is all
  that a product computed a band of rows at a time needs.
-/
import proofs.«106534_j31774168055916_1_alg».proof.Proof.LibMatmulSum

noncomputable section

namespace Cert.Product

open Idealize.ShloMosaic Idealize.ShloMosaic.ValueIdx

/-- The product of an [M, K] array and a [K, N] array: entry (i, j) is the sum over k of l (i, k) * r (k, j). -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (j : (⟨2, ![M, N]⟩ : Shape).Idx) : mm l r j = ∑ k : Fin K, l (ix2 (j 0) k) * r (ix2 k (j 1)) := rfl

variable {M K N : Nat} (d : DotDims ⟨2, ![M, K]⟩ ⟨2, ![K, N]⟩ ⟨2, ![M, N]⟩)

/-- The host's dot_general of a plain product is the product. -/
theorem dotGeneral_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral (F := Ideal) d prec l r = mm l r :=
  funext fun j => MatmulSum.dotGeneral_apply d hlc hrc hln hrn hlb hrb prec .single l r j

/-- A matrix unit's product into the zero accumulator is the product. -/
theorem matmul_zero_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    matmul (F := Ideal) d prec l r (constant ⟨2, ![M, N]⟩ .f32 0x00000000#32) = mm l r :=
  funext fun j => MatmulSum.matmul_zero_apply d hlc hrc hln hrn hlb hrb prec l r j

/-- Rows `o, o + 1, …` of a product: if `lb` holds the rows of `l` from row `o` on (`hl`), then the product of `lb`
    with `r` at (p, q) is the product of `l` with `r` at (o + p, q). -/
theorem mm_rows {M' : Nat} (l : (⟨2, ![M, K]⟩ : Shape).Idx → EReal) (lb : (⟨2, ![M', K]⟩ : Shape).Idx → EReal)
    (r : (⟨2, ![K, N]⟩ : Shape).Idx → EReal) (p : Fin M') (i : Fin M) (q : Fin N)
    (hl : ∀ k : Fin K, lb (ix2 p k) = l (ix2 i k)) :
    mm lb r (ix2 p q) = mm l r (ix2 i q) :=
  Finset.sum_congr rfl fun k _ => by rw [show (ix2 p q : (⟨2, ![M', N]⟩ : Shape).Idx) 0 = p from rfl,
    show (ix2 p q : (⟨2, ![M', N]⟩ : Shape).Idx) 1 = q from rfl, show (ix2 i q : (⟨2, ![M, N]⟩ : Shape).Idx) 0 = i from rfl,
    show (ix2 i q : (⟨2, ![M, N]⟩ : Shape).Idx) 1 = q from rfl, hl k]

end Cert.Product

end
-- ==== Proof.Layer.lean ====
/-
  The graph convolution's host-side functions, shared by the two programs.

  The edge list [2, 800000] gives 800000 source and destination nodes; 50000 self loops 0, 1, …, 49999 are appended
  to each. A node's degree is the number of (extended) edges ending at it, dinv is degree^(-1/2) where the degree is
  positive and 0 elsewhere, and the weight of edge e is dinv(src e) · dinv(dst e). One layer sends node features
  h : [50000, C] to the array whose row n is the sum, over the edges e ending at n, of weight(e) · h(src e), plus a bias
  row. Negative indices are wrapped by the node count before a row is gathered, as the lowered programs do. The whole
  network is three such layers, each applied to the product of the previous layer's output with a weight matrix.
-/
import proofs.«106534_j31774168055916_1_alg».proof.Proof.Gen.KernelIdeal
import proofs.«106534_j31774168055916_1_alg».proof.Proof.LibProduct

noncomputable section

namespace Cert.KernelIdeal.Layer

open Idealize.ShloMosaic Cert.KernelIdeal Cert.KernelIdeal.Facts₀ Cert.KernelIdeal.Facts

variable {F : FTy → Type} [FloatOps F]

/-- Row `r` of the edge list followed by the self loops 0 … 49999: the 850000 edge endpoints of one kind. -/
def endpoints (off : Fin 2 → Nat) (hs : S2x800000.Slices off S1x800000)
    (e : (⟨S2x800000, .i32⟩ : BufTy).Contents (Elt F)) : (⟨S850000, .i32⟩ : BufTy).Contents (Elt F) :=
  concatenate S850000 0
    [⟨S800000, (shapeCast S800000 (extractStridedSlice S1x800000 off e hs) shapeCasts_S1x800000_S800000 :
        (⟨S800000, .i32⟩ : BufTy).Contents (Elt F))⟩,
     ⟨S50000, (iotaInDim S50000 32 0 : (⟨S50000, .i32⟩ : BufTy).Contents (Elt F))⟩]
    concatenates_S800000_S50000_S850000_d0

/-- The source node of every edge, self loops included. -/
def srcOf (e : (⟨S2x800000, .i32⟩ : BufTy).Contents (Elt F)) : (⟨S850000, .i32⟩ : BufTy).Contents (Elt F) :=
  endpoints ![0, 0] slices_S2x800000_S1x800000_0_0 e

/-- The destination node of every edge, self loops included. -/
def dstOf (e : (⟨S2x800000, .i32⟩ : BufTy).Contents (Elt F)) : (⟨S850000, .i32⟩ : BufTy).Contents (Elt F) :=
  endpoints ![1, 0] slices_S2x800000_S1x800000_1_0 e

/-- The degree of every node: a one added, for every edge, at the edge's destination. -/
def degree (dst : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

/-- degree^(-1/2) where the degree is positive, 0 elsewhere (the degree is first raised to at least 1). -/
def dinvOf (deg : (⟨S50000, .f32⟩ : BufTy).Contents (Elt F)) : (⟨S50000, .f32⟩ : BufTy).Contents (Elt F) :=
  select (cmpf .ogt deg (broadcastInDim S50000 ![] bcast_S_S50000 (constant S_ .f32 0x00000000#32)))
    (Host.rsqrt (maximumf deg (broadcastInDim S50000 ![] bcast_S_S50000 (constant S_ .f32 0x3F800000#32))))
    (broadcastInDim S50000 ![] bcast_S_S50000 (constant S_ .f32 0x00000000#32))

/-- A node index as a gather reads it: a negative index has the node count added; then a column of indices. -/
def wrapIdx (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The weight of every edge: dinv at its source times dinv at its destination. -/
def edgeNorm (dinv : (⟨S50000, .f32⟩ : BufTy).Contents (Elt F)) (src dst : (⟨S850000, .i32⟩ : BufTy).Contents (Elt F)) :
    (⟨S850000, .f32⟩ : BufTy).Contents (Elt F) :=
  mulf (Host.gather gather_S50000_S850000x1_S850000_n_0_n_n_0_1_1 dinv (wrapIdx src))
    (Host.gather gather_S50000_S850000x1_S850000_n_0_n_n_0_1_1 dinv (wrapIdx dst))

/-- One layer's aggregation on 128 features: every edge carries its source's row scaled by the edge's weight to its
    destination, where the rows are summed; the bias row is added to every node. -/
def aggregate128 (h : (⟨S50000x128, .f32⟩ : BufTy).Contents (Elt F)) (src dst : (⟨S850000, .i32⟩ : BufTy).Contents (Elt F))
    (norm : (⟨S850000, .f32⟩ : BufTy).Contents (Elt F)) (b : (⟨S128, .f32⟩ : BufTy).Contents (Elt F)) :
    (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 dst)
      (mulf (Host.gather gather_S50000x128_S850000x1_S850000x128_1_0_n_n_0_1_1128 h (wrapIdx src))
        (broadcastInDim S850000x128 ![0, 1] bcast_S850000x1_S850000x128_0_1
          (broadcastInDim S850000x1 ![0] bcast_S850000_S850000x1_0 norm))))
    (broadcastInDim S50000x128 ![0, 1] bcast_S1x128_S50000x128_0_1 (broadcastInDim S1x128 ![1] bcast_S128_S1x128_1 b))

/-- The same aggregation on 40 features. -/
def aggregate40 (h : (⟨S50000x40, .f32⟩ : BufTy).Contents (Elt F)) (src dst : (⟨S850000, .i32⟩ : BufTy).Contents (Elt F))
    (norm : (⟨S850000, .f32⟩ : BufTy).Contents (Elt F)) (b : (⟨S40, .f32⟩ : BufTy).Contents (Elt F)) :
    (⟨S50000x40, .f32⟩ : BufTy).Contents (Elt F) :=
  addf
    (Host.scatterAdd scatter_S50000x40_S850000x1_S850000x40_1_0_0_1
      (broadcastInDim S50000x40 ![] bcast_S_S50000x40 (constant S_ .f32 0x00000000#32))
      (broadcastInDim S850000x1 ![0] bcast_S850000_S850000x1_0 dst)
      (mulf (Host.gather gather_S50000x40_S850000x1_S850000x40_1_0_n_n_0_1_140 h (wrapIdx src))
        (broadcastInDim S850000x40 ![0, 1] bcast_S850000x1_S850000x40_0_1
          (broadcastInDim S850000x1 ![0] bcast_S850000_S850000x1_0 norm))))
    (broadcastInDim S50000x40 ![0, 1] bcast_S1x40_S50000x40_0_1 (broadcastInDim S1x40 ![1] bcast_S40_S1x40_1 b))

/-- The edge weights as a function of the edge list alone. -/
def normOf (e : (⟨S2x800000, .i32⟩ : BufTy).Contents (Elt F)) : (⟨S850000, .f32⟩ : BufTy).Contents (Elt F) :=
  edgeNorm (dinvOf (degree (dstOf e))) (srcOf e) (dstOf e)

/-- The three-layer network on the extended reals: each layer aggregates the product of its input with its weight
    matrix and adds its bias. -/
def gcn (x : (⟨S50000x256, .f32⟩ : BufTy).Contents (Elt Ideal)) (e : (⟨S2x800000, .i32⟩ : BufTy).Contents (Elt Ideal))
    (w1 : (⟨S256x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x40, .f32⟩ : BufTy).Contents (Elt Ideal)) (b3 : (⟨S40, .f32⟩ : BufTy).Contents (Elt Ideal)) :
    (⟨S50000x40, .f32⟩ : BufTy).Contents (Elt Ideal) :=
  aggregate40
    (Cert.Product.mm (M := 50000) (K := 128) (N := 40)
      (aggregate128
        (Cert.Product.mm (M := 50000) (K := 128) (N := 128)
          (aggregate128 (Cert.Product.mm (M := 50000) (K := 256) (N := 128) x w1) (srcOf e) (dstOf e) (normOf e) b1) w2)
        (srcOf e) (dstOf e) (normOf e) b2) w3)
    (srcOf e) (dstOf e) (normOf e) b3

end Cert.KernelIdeal.Layer

end
-- ==== Proof.KernelHost.lean ====
/-
  The host operations of the program between its matrix-product regions, read as functions.

  Before the first region the host operations build, from the edge list, the source and destination node of every
  edge and the edge weights. After each region they aggregate the region's product along the edges and add the bias.
  Each stretch is read here from ANY buffer contents it starts from: its result buffer holds the shared function of
  the buffers it reads, and every buffer it does not write is as it was.
-/
import proofs.«106534_j31774168055916_1_alg».proof.Proof.Gen.KernelIdeal.Launch
import proofs.«106534_j31774168055916_1_alg».proof.Proof.Layer
import Idealize.ShloMosaic.Lib.StableHlo.Run

set_option maxRecDepth 16384

noncomputable section

namespace Cert.KernelIdeal.KernelHost

open Idealize.ShloMosaic Idealize.ShloMosaic.TcCoe Idealize.ShloMosaic.StableHlo
open Cert.KernelIdeal Cert.KernelIdeal.Gen Cert.KernelIdeal.Layer

variable {F : FTy → Type} [FloatOps F]

/-! ## What a stretch does not write, it keeps -/

/-- A buffer that `hostOps0` does not write keeps its contents across it. -/
theorem keep0 (W : Valuation τ sig (Elt F)) (b : Ref sig .tc) (hb : b ∉ ([main_v0, main_v1, main_v2, main_v3, main_v4, main_v5, main_v6, main_cst, main_v7, main_cst_0, main_v8, main_v9, main_v10, main_cst_1, main_v11, main_v12, main_cst_2, main_v13, main_v14, main_v15, main_cst_3] : List (Ref sig .tc))) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact hb (by decide))))

/-- A buffer that `hostOps0_1` does not write keeps its contents across it. -/
theorem keep0_1 (W : Valuation τ sig (Elt F)) (b : Ref sig .tc) (hb : b ∉ ([main_call0_v0, main_call0_v1, main_v16] : List (Ref sig .tc))) :
    StableHlo.after (hostOps0_1 (F := F)) W (Proc.devRef .tc b) = W (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact hb (by decide))))

/-- A buffer that `hostOps0_2` does not write keeps its contents across it. -/
theorem keep0_2 (W : Valuation τ sig (Elt F)) (b : Ref sig .tc) (hb : b ∉ ([main_c, main_v17, main_v18, main_c_4, main_v19, main_v20, main_v21, main_v22, main_v23, main_c_5, main_v24, main_v25, main_c_6, main_v26, main_v27, main_v28, main_v29, main_v30, main_v31] : List (Ref sig .tc))) :
    StableHlo.after (hostOps0_2 (F := F)) W (Proc.devRef .tc b) = W (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact hb (by decide))))

/-- A buffer that `hostOps1` does not write keeps its contents across it. -/
theorem keep1 (W : Valuation τ sig (Elt F)) (b : Ref sig .tc) (hb : b ∉ ([main_c_7, main_v33, main_v34, main_c_8, main_v35, main_v36, main_v37, main_v38, main_v39, main_v40, main_v41, main_v42, main_cst_9, main_v43, main_v44, main_v45, main_v46, main_v47, main_v48] : List (Ref sig .tc))) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact hb (by decide))))

/-- A buffer that `hostOps2` does not write keeps its contents across it. -/
theorem keep2 (W : Valuation τ sig (Elt F)) (b : Ref sig .tc) (hb : b ∉ ([main_c_10, main_v50, main_v51, main_c_11, main_v52, main_v53, main_v54, main_v55, main_v56, main_v57, main_v58, main_v59, main_cst_12, main_v60, main_v61, main_v62, main_v63, main_v64, main_v65] : List (Ref sig .tc))) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact hb (by decide))))

/-- A buffer that `hostOps3` does not write keeps its contents across it. -/
theorem keep3 (W : Valuation τ sig (Elt F)) (b : Ref sig .tc) (hb : b ∉ ([main_c_13, main_v67, main_v68, main_c_14, main_v69, main_v70, main_v71, main_v72, main_v73, main_v74, main_v75, main_v76, main_cst_15, main_v77, main_v78, main_v79, main_v80, main_v81, main_v82] : List (Ref sig .tc))) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact hb (by decide))))

/-! ## The first stretch: the edges' endpoints, the degrees and their inverse square roots -/

variable (W : Valuation τ sig (Elt F))

theorem src_eq : StableHlo.after (hostOps0 (F := F)) W (Proc.devRef .tc main_v3) = srcOf (W (Proc.devRef .tc main_arg1)) := by
  after_results; rfl

theorem dst_eq : StableHlo.after (hostOps0 (F := F)) W (Proc.devRef .tc main_v6) = dstOf (W (Proc.devRef .tc main_arg1)) := by
  after_results; rfl

theorem positive_eq : StableHlo.after (hostOps0 (F := F)) W (Proc.devRef .tc main_v12)
    = cmpf .ogt (degree (dstOf (W (Proc.devRef .tc main_arg1)))) (broadcastInDim S50000 ![] bcast_S_S50000 (constant S_ .f32 0x00000000#32)) := by
  after_results; rfl

theorem rsqrt_eq : StableHlo.after (hostOps0 (F := F)) W (Proc.devRef .tc main_v15)
    = Host.rsqrt (maximumf (degree (dstOf (W (Proc.devRef .tc main_arg1)))) (broadcastInDim S50000 ![] bcast_S_S50000 (constant S_ .f32 0x3F800000#32))) := by
  after_results; rfl

theorem zero_eq : StableHlo.after (hostOps0 (F := F)) W (Proc.devRef .tc main_cst_3) = constant S_ .f32 0x00000000#32 := by
  after_results

/-- The selection: the inverse square root where the degree is positive, zero elsewhere. -/
theorem dinv_eq : StableHlo.after (hostOps0_1 (F := F)) W (Proc.devRef .tc main_v16)
    = select (W (Proc.devRef .tc main_v12)) (W (Proc.devRef .tc main_v15))
        (broadcastInDim S50000 ![] bcast_S_S50000 (W (Proc.devRef .tc main_cst_3))) := by
  after_results; rfl

set_option maxHeartbeats 8000000 in
/-- The edge weights from dinv and the endpoints. -/
theorem norm_eq : StableHlo.after (hostOps0_2 (F := F)) W (Proc.devRef .tc main_v31)
    = edgeNorm (W (Proc.devRef .tc main_v16)) (W (Proc.devRef .tc main_v3)) (W (Proc.devRef .tc main_v6)) := by
  after_results_simp; rfl

/-! ## After each region: the aggregation of the region's product -/

set_option maxHeartbeats 8000000 in
theorem layer1_eq : StableHlo.after (hostOps1 (F := F)) W (Proc.devRef .tc main_v48)
    = aggregate128 (W (Proc.devRef .tc main_v32)) (W (Proc.devRef .tc main_v3)) (W (Proc.devRef .tc main_v6))
        (W (Proc.devRef .tc main_v31)) (W (Proc.devRef .tc main_arg3)) := by
  after_results_simp; rfl

set_option maxHeartbeats 8000000 in
theorem layer2_eq : StableHlo.after (hostOps2 (F := F)) W (Proc.devRef .tc main_v65)
    = aggregate128 (W (Proc.devRef .tc main_v49)) (W (Proc.devRef .tc main_v3)) (W (Proc.devRef .tc main_v6))
        (W (Proc.devRef .tc main_v31)) (W (Proc.devRef .tc main_arg5)) := by
  after_results_simp; rfl

set_option maxHeartbeats 8000000 in
theorem layer3_eq : StableHlo.after (hostOps3 (F := F)) W (Proc.devRef .tc main_v82)
    = aggregate40 (W (Proc.devRef .tc main_v66)) (W (Proc.devRef .tc main_v3)) (W (Proc.devRef .tc main_v6))
        (W (Proc.devRef .tc main_v31)) (W (Proc.devRef .tc main_arg7)) := by
  after_results_simp; rfl

end Cert.KernelIdeal.KernelHost

end
-- ==== Proof.RegionValue.lean ====
/-
  Each of the three matrix-product regions, read as one whole-array fact.

  A region multiplies a [50000, K] array by a [K, N] array a band of 2000 rows at a time: grid point t loads rows
  2000 t … 2000 t + 1999 of the left factor and the whole right factor, multiplies them on the matrix unit into a
  zero accumulator (the change of float format on the way in is the identity on the extended reals) and writes the
  [2000, N] result back as rows 2000 t … 2000 t + 1999 of the output. A band of rows of a product is the product of
  the band, the 25 bands tile the 50000 rows, so after the region the output array is the product of the two input
  arrays as the region found them.
-/
import proofs.«106534_j31774168055916_1_alg».proof.Proof.Gen.KernelIdeal.Frame
import proofs.«106534_j31774168055916_1_alg».proof.Proof.LibProduct
import Idealize.ShloMosaic.Lib.Pipeline.Value

set_option maxRecDepth 16384

noncomputable section

namespace Cert.KernelIdeal.RegionValue

open Idealize.ShloMosaic Idealize.ShloMosaic.TcCoe Idealize.ShloMosaic.ValueIdx
open Cert.KernelIdeal Cert.KernelIdeal.Gen Cert.Product

variable (V : (c : Dev nD) → (b : Ref sig .tc) → Buf (Elt Ideal) ((c : Thread nD τ).loc b))

/-- The zero offsets on both axes, as the constant function. -/
theorem zero_offsets : (![0, 0] : Fin 2 → Nat) = fun _ => 0 := funext fun a => by fin_cases a <;> rfl

/-! ## Region 0: [50000, 256] by [256, 128] -/

/-- Where the three windows' blocks sit at grid point t, decided over the 25 points: the left factor's and the output's
    at block row t, block column 0; the right factor's at block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at an index. On the extended reals the change of float format on the way in is the
    identity, so the matrix unit's product into the zero accumulator is, at (p, q), the sum over the shared axis of
    x0 (p, k) * x1 (k, q): the product of the two blocks. -/
theorem pay0_apply (x0 : Vec Ideal S2000x256 .f32) (x1 : Vec Ideal S256x128 .f32) (j : S2000x128.Idx) :
    k0_pay1 (F := Ideal) x0 x1 j = mm (M := 2000) (K := 256) (N := 128) x0 x1 j := by
  unfold k0_pay1
  exact MatmulSum.matmul_zero_apply dot_S2000x256_S256x128_S2000x128_1_0_0_1_n_n rfl rfl rfl rfl rfl rfl none
    (truncf .bf16 x0 bitsLt_bf16_f32) (truncf .bf16 x1 bitsLt_bf16_f32) j

/-- A band of rows of a product is the product of the band. If the [2000, 256] block x0 holds rows o … o + 1999 of L (h0)
    and the block x1 is all of R (h1), the body's value at j = (p, q) is the product of L and R at i = (o + p, q). -/
theorem band0 (L : S50000x256.Idx → EReal) (R : S256x128.Idx → EReal)
    (x0 : Vec Ideal S2000x256 .f32) (x1 : Vec Ideal S256x128 .f32) (o : Nat)
    (h0 : ∀ (x : S2000x256.Idx) (k : S50000x256.Idx), (k 0).val = o + (x 0).val → (k 1).val = (x 1).val → x0 x = L k)
    (h1 : ∀ x : S256x128.Idx, x1 x = R x)
    (j : S2000x128.Idx) (i : S50000x128.Idx) (hi0 : (i 0).val = o + (j 0).val) (hi1 : (i 1).val = (j 1).val) :
    k0_pay1 (F := Ideal) x0 x1 j = mm (M := 50000) (K := 256) (N := 128) L R i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = o + p.val := hi0
  obtain rfl : s = q := Fin.ext hi1
  obtain rfl : x1 = R := funext h1
  rw [pay0_apply]
  exact mm_rows L x0 x1 p r s fun k => h0 (ix2 p k) (ix2 r k) hr rfl

/-- The left factor's block at point t is rows 2000 t … 2000 t + 1999 of its array: an element of a block sits in the
    array, on each axis, at block index × block size + its coordinate inside the block. -/
theorem left_block0 (c : Dev nD) (t : Fin cfg0.N) (x : S2000x256.Idx) (k : S50000x256.Idx)
    (hk0 : (k 0).val = 2000 * t.val + (x 0).val) (hk1 : (k 1).val = (x 1).val) :
    (iblk0 (F := Ideal) V c 0 t : Vec Ideal S2000x256 .f32) x = (V c main_arg0 : S50000x256.Idx → EReal) k := by
  obtain ⟨e0, e1, -⟩ := index_facts0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 256 + 1 * (x 1).val = (k 1).val; rw [e1, hk1]; omega

/-- The right factor's block at every point is its whole array: block index 0 on both axes. -/
theorem right_block0 (c : Dev nD) (t : Fin cfg0.N) (x : S256x128.Idx) :
    (iblk0 (F := Ideal) V c 1 t : Vec Ideal S256x128 .f32) x = (V c main_arg2 : S256x128.Idx → EReal) x := by
  obtain ⟨-, -, e2, e3, -⟩ := index_facts0 t
  unfold iblk0
  rw [View.read_apply]
  show V c main_arg2 _ = V c main_arg2 _
  congr 1
  funext a
  apply Fin.ext
  match a with
  | ⟨0, _⟩ => show win0_1.index t 0 * 256 + 1 * (x 0).val = (x 0).val; rw [e2]; omega
  | ⟨1, _⟩ => show win0_1.index t 1 * 128 + 1 * (x 1).val = (x 1).val; rw [e3]; omega

/-- What point t writes back is rows 2000 t … 2000 t + 1999 of the whole product: the output's block sits at block
    row t, the left block holds the same rows of the left factor, the right block is the whole right factor. -/
theorem flushed_eq0 (c : Dev nD) (t : Fin cfg0.N) :
    (dat0 (F := Ideal) V c).flushed 2 t
      = ((cfg0.win 2).blk t).view.read (Elt Ideal)
          (mm (M := 50000) (K := 256) (N := 128) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x256) zero_offsets, View.ld_unit_zero (S := S256x128) zero_offsets]
  obtain ⟨-, -, -, -, e4, e5⟩ := index_facts0 t
  funext y
  refine band0 (V c main_arg0) (V c main_arg2) (iblk0 (F := Ideal) V c 0 t) (iblk0 (F := Ideal) V c 1 t) (2000 * t.val)
    (left_block0 V c t) (right_block0 V c t) ((cfg0.win 2).xinj (grid0.coords t) y) (((cfg0.win 2).blk t).view.emb y) ?_ ?_
  · show win0_2.index t 0 * 2000 + 1 * (y 0).val = 2000 * t.val + (y 0).val; rw [e4]; omega
  · show win0_2.index t 1 * 128 + 1 * (y 1).val = (y 1).val; rw [e5]; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- The 25 bands tile the 50000 rows: row i 0 lies in the band of point (i 0) / 2000, and a band spans every column. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 :=
    ⟨⟨(i 0).val / 2000, by show (i 0).val / 2000 < grid0.N; rw [hN]; omega⟩, rfl⟩
  obtain ⟨-, -, -, -, e4, e5⟩ := index_facts0 t
  refine ⟨t, flush0_2 t, ?_⟩
  rw [mem_blk0]
  intro a
  match a with
  | ⟨0, _⟩ =>
    show win0_2.index t 0 * 2000 ≤ (i 0).val ∧ (i 0).val < win0_2.index t 0 * 2000 + 2000
    rw [e4, ht]; omega
  | ⟨1, _⟩ =>
    show win0_2.index t 1 * 128 ≤ (i 1).val ∧ (i 1).val < win0_2.index t 1 * 128 + 128
    rw [e5]; omega

/-- After the first region its output array is the product of the [50000, 256] input with the [256, 128] weight. -/
theorem final0 (c : Dev nD) :
    (dat0 (F := Ideal) V c).arrAt 2 cfg0.N
      = mm (M := 50000) (K := 256) (N := 128) (V c main_arg0) (V c main_arg2) :=
  (dat0 (F := Ideal) V c).arrAt_eq_of_cover 2 (mm (M := 50000) (K := 256) (N := 128) (V c main_arg0) (V c main_arg2))
    (fun t _ => flushed_eq0 V c t) cover0

/-! ## Region 1: [50000, 128] by [128, 128] -/

/-- Where the three windows' blocks sit at grid point t, decided over the 25 points: the left factor's and the output's
    at block row t, block column 0; the right factor's at block (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value at an index. On the extended reals the shape cast to the same shape and the change of float format on the way in are the
    identity, so the matrix unit's product into the zero accumulator is, at (p, q), the sum over the shared axis of
    x0 (p, k) * x1 (k, q): the product of the two blocks. -/
theorem pay1_apply (x0 : Vec Ideal S2000x128 .f32) (x1 : Vec Ideal S128x128 .f32) (j : S2000x128.Idx) :
    k1_pay1 (F := Ideal) x0 x1 j = mm (M := 2000) (K := 128) (N := 128) x0 x1 j := by
  unfold k1_pay1
  rw [shapeCast_self]
  exact MatmulSum.matmul_zero_apply dot_S2000x128_S128x128_S2000x128_1_0_0_1_n_n rfl rfl rfl rfl rfl rfl none
    (truncf .bf16 x0 bitsLt_bf16_f32) (truncf .bf16 x1 bitsLt_bf16_f32) j

/-- A band of rows of a product is the product of the band. If the [2000, 128] block x0 holds rows o … o + 1999 of L (h0)
    and the block x1 is all of R (h1), the body's value at j = (p, q) is the product of L and R at i = (o + p, q). -/
theorem band1 (L : S50000x128.Idx → EReal) (R : S128x128.Idx → EReal)
    (x0 : Vec Ideal S2000x128 .f32) (x1 : Vec Ideal S128x128 .f32) (o : Nat)
    (h0 : ∀ (x : S2000x128.Idx) (k : S50000x128.Idx), (k 0).val = o + (x 0).val → (k 1).val = (x 1).val → x0 x = L k)
    (h1 : ∀ x : S128x128.Idx, x1 x = R x)
    (j : S2000x128.Idx) (i : S50000x128.Idx) (hi0 : (i 0).val = o + (j 0).val) (hi1 : (i 1).val = (j 1).val) :
    k1_pay1 (F := Ideal) x0 x1 j = mm (M := 50000) (K := 128) (N := 128) L R i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = o + p.val := hi0
  obtain rfl : s = q := Fin.ext hi1
  obtain rfl : x1 = R := funext h1
  rw [pay1_apply]
  exact mm_rows L x0 x1 p r s fun k => h0 (ix2 p k) (ix2 r k) hr rfl

/-- The left factor's block at point t is rows 2000 t … 2000 t + 1999 of its array: an element of a block sits in the
    array, on each axis, at block index × block size + its coordinate inside the block. -/
theorem left_block1 (c : Dev nD) (t : Fin cfg1.N) (x : S2000x128.Idx) (k : S50000x128.Idx)
    (hk0 : (k 0).val = 2000 * t.val + (x 0).val) (hk1 : (k 1).val = (x 1).val) :
    (iblk1 (F := Ideal) V c 0 t : Vec Ideal S2000x128 .f32) x = (V c main_v48 : S50000x128.Idx → EReal) k := by
  obtain ⟨e0, e1, -⟩ := index_facts1 t
  unfold iblk1
  rw [View.read_apply]
  show V c main_v48 _ = V c main_v48 _
  congr 1
  funext a
  apply Fin.ext
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- The right factor's block at every point is its whole array: block index 0 on both axes. -/
theorem right_block1 (c : Dev nD) (t : Fin cfg1.N) (x : S128x128.Idx) :
    (iblk1 (F := Ideal) V c 1 t : Vec Ideal S128x128 .f32) x = (V c main_arg4 : S128x128.Idx → EReal) x := by
  obtain ⟨-, -, e2, e3, -⟩ := index_facts1 t
  unfold iblk1
  rw [View.read_apply]
  show V c main_arg4 _ = V c main_arg4 _
  congr 1
  funext a
  apply Fin.ext
  match a with
  | ⟨0, _⟩ => show win1_1.index t 0 * 128 + 1 * (x 0).val = (x 0).val; rw [e2]; omega
  | ⟨1, _⟩ => show win1_1.index t 1 * 128 + 1 * (x 1).val = (x 1).val; rw [e3]; omega

/-- What point t writes back is rows 2000 t … 2000 t + 1999 of the whole product: the output's block sits at block
    row t, the left block holds the same rows of the left factor, the right block is the whole right factor. -/
theorem flushed_eq1 (c : Dev nD) (t : Fin cfg1.N) :
    (dat1 (F := Ideal) V c).flushed 2 t
      = ((cfg1.win 2).blk t).view.read (Elt Ideal)
          (mm (M := 50000) (K := 128) (N := 128) (V c main_v48) (V c main_arg4)) := by
  show (cfg1.win 2).cut (grid1.coords t) ((dat1 (F := Ideal) V c).after 2 t) = _
  rw [after1_2]
  unfold out1_2
  rw [View.canon_unit_zero zero_offsets]
  simp only [View.ld_unit_zero (S := S2000x128) zero_offsets, View.ld_unit_zero (S := S128x128) zero_offsets]
  obtain ⟨-, -, -, -, e4, e5⟩ := index_facts1 t
  funext y
  refine band1 (V c main_v48) (V c main_arg4) (iblk1 (F := Ideal) V c 0 t) (iblk1 (F := Ideal) V c 1 t) (2000 * t.val)
    (left_block1 V c t) (right_block1 V c t) ((cfg1.win 2).xinj (grid1.coords t) y) (((cfg1.win 2).blk t).view.emb y) ?_ ?_
  · show win1_2.index t 0 * 2000 + 1 * (y 0).val = 2000 * t.val + (y 0).val; rw [e4]; omega
  · show win1_2.index t 1 * 128 + 1 * (y 1).val = (y 1).val; rw [e5]; omega

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v49).slice (win1_2.rect t)).set ↔ _
  rw [View.set_slice_whole, Rect.mem_set_unit]
  exact Iff.rfl

/-- The 25 bands tile the 50000 rows: row i 0 lies in the band of point (i 0) / 2000, and a band spans every column. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 25 := N_1
  obtain ⟨t, ht⟩ : ∃ t : Fin cfg1.N, t.val = (i 0).val / 2000 :=
    ⟨⟨(i 0).val / 2000, by show (i 0).val / 2000 < grid1.N; rw [hN]; omega⟩, rfl⟩
  obtain ⟨-, -, -, -, e4, e5⟩ := index_facts1 t
  refine ⟨t, flush1_2 t, ?_⟩
  rw [mem_blk1]
  intro a
  match a with
  | ⟨0, _⟩ =>
    show win1_2.index t 0 * 2000 ≤ (i 0).val ∧ (i 0).val < win1_2.index t 0 * 2000 + 2000
    rw [e4, ht]; omega
  | ⟨1, _⟩ =>
    show win1_2.index t 1 * 128 ≤ (i 1).val ∧ (i 1).val < win1_2.index t 1 * 128 + 128
    rw [e5]; omega

/-- After the second region its output array is the product of its [50000, 128] input with the [128, 128] weight. -/
theorem final1 (c : Dev nD) :
    (dat1 (F := Ideal) V c).arrAt 2 cfg1.N
      = mm (M := 50000) (K := 128) (N := 128) (V c main_v48) (V c main_arg4) :=
  (dat1 (F := Ideal) V c).arrAt_eq_of_cover 2 (mm (M := 50000) (K := 128) (N := 128) (V c main_v48) (V c main_arg4))
    (fun t _ => flushed_eq1 V c t) cover1

/-! ## Region 2: [50000, 128] by [128, 40] -/

/-- Where the three windows' blocks sit at grid point t, decided over the 25 points: the left factor's and the output's
    at block row t, block column 0; the right factor's at block (0, 0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at an index. On the extended reals the shape cast to the same shape and the change of float format on the way in are the
    identity, so the matrix unit's product into the zero accumulator is, at (p, q), the sum over the shared axis of
    x0 (p, k) * x1 (k, q): the product of the two blocks. -/
theorem pay2_apply (x0 : Vec Ideal S2000x128 .f32) (x1 : Vec Ideal S128x40 .f32) (j : S2000x40.Idx) :
    k2_pay1 (F := Ideal) x0 x1 j = mm (M := 2000) (K := 128) (N := 40) x0 x1 j := by
  unfold k2_pay1
  rw [shapeCast_self]
  exact MatmulSum.matmul_zero_apply dot_S2000x128_S128x40_S2000x40_1_0_0_1_n_n rfl rfl rfl rfl rfl rfl none
    (truncf .bf16 x0 bitsLt_bf16_f32) (truncf .bf16 x1 bitsLt_bf16_f32) j

/-- A band of rows of a product is the product of the band. If the [2000, 128] block x0 holds rows o … o + 1999 of L (h0)
    and the block x1 is all of R (h1), the body's value at j = (p, q) is the product of L and R at i = (o + p, q). -/
theorem band2 (L : S50000x128.Idx → EReal) (R : S128x40.Idx → EReal)
    (x0 : Vec Ideal S2000x128 .f32) (x1 : Vec Ideal S128x40 .f32) (o : Nat)
    (h0 : ∀ (x : S2000x128.Idx) (k : S50000x128.Idx), (k 0).val = o + (x 0).val → (k 1).val = (x 1).val → x0 x = L k)
    (h1 : ∀ x : S128x40.Idx, x1 x = R x)
    (j : S2000x40.Idx) (i : S50000x40.Idx) (hi0 : (i 0).val = o + (j 0).val) (hi1 : (i 1).val = (j 1).val) :
    k2_pay1 (F := Ideal) x0 x1 j = mm (M := 50000) (K := 128) (N := 40) L R i := by
  obtain ⟨p, q, rfl⟩ : ∃ (p : Fin 2000) (q : Fin 40), j = ix2 p q := ⟨j 0, j 1, eq_ix2 j⟩
  obtain ⟨r, s, rfl⟩ : ∃ (r : Fin 50000) (s : Fin 40), i = ix2 r s := ⟨i 0, i 1, eq_ix2 i⟩
  have hr : r.val = o + p.val := hi0
  obtain rfl : s = q := Fin.ext hi1
  obtain rfl : x1 = R := funext h1
  rw [pay2_apply]
  exact mm_rows L x0 x1 p r s fun k => h0 (ix2 p k) (ix2 r k) hr rfl

/-- The left factor's block at point t is rows 2000 t … 2000 t + 1999 of its array: an element of a block sits in the
    array, on each axis, at block index × block size + its coordinate inside the block. -/
theorem left_block2 (c : Dev nD) (t : Fin cfg2.N) (x : S2000x128.Idx) (k : S50000x128.Idx)
    (hk0 : (k 0).val = 2000 * t.val + (x 0).val) (hk1 : (k 1).val = (x 1).val) :
    (iblk2 (F := Ideal) V c 0 t : Vec Ideal S2000x128 .f32) x = (V c main_v65 : S50000x128.Idx → EReal) k := by
  obtain ⟨e0, e1, -⟩ := index_facts2 t
  unfold iblk2
  rw [View.read_apply]
  show V c main_v65 _ = V c main_v65 _
  congr 1
  funext a
  apply Fin.ext
  match a with
  | ⟨0, _⟩ => show win2_0.index t 0 * 2000 + 1 * (x 0).val = (k 0).val; rw [e0, hk0]; omega
  | ⟨1, _⟩ => show win2_0.index t 1 * 128 + 1 * (x 1).val = (k 1).val; rw [e1, hk1]; omega

/-- The right factor's block at every point is its whole array: block index 0 on both axes. -/
theorem right_block2 (c : Dev nD) (t : Fin cfg2.N) (x : S128x40.Idx) :
    (iblk2 (F := Ideal) V c 1 t : Vec Ideal S128x40 .f32) x = (V c main_arg6 : S128x40.Idx → EReal) x := by
  obtain ⟨-, -, e2, e3, -⟩ := index_facts2 t
  unfold iblk2
  rw [View.read_apply]
  show V c main_arg6 _ = V c main_arg6 _
  congr 1
  funext a
  apply Fin.ext
  match a with
  | ⟨0, _⟩ => show win2_1.index t 0 * 128 + 1 * (x 0).val = (x 0).val; rw [e2]; omega
  | ⟨1, _⟩ => show win2_1.index t 1 * 40 + 1 * (x 1).val = (x 1).val; rw [e3]; omega

/-- What point t writes back is rows 2000 t … 2000 t + 1999 of the whole product: the output's block sits at block
    row t, the left block holds the same rows of the left factor, the right block is the whole right factor. -/
theorem flushed_eq2 (c : Dev nD) (t : Fin cfg2.N) :
    (dat2 (F := Ideal) V c).flushed 2 t
      = ((cfg2.win 2).blk t).view.read (Elt Ideal)
          (mm (M := 50000) (K := 128) (N := 40) (V c main_v65) (V c main_arg6)) := by
  show (cfg2.win 2).cut (grid2.coords t) ((dat2 (F := Ideal) V c).after 2 t) = _
  rw [after2_2]
  unfold out2_2
  rw [View.canon_unit_zero zero_offsets]
  simp only [View.ld_unit_zero (S := S2000x128) zero_offsets, View.ld_unit_zero (S := S128x40) zero_offsets]
  obtain ⟨-, -, -, -, e4, e5⟩ := index_facts2 t
  funext y
  refine band2 (V c main_v65) (V c main_arg6) (iblk2 (F := Ideal) V c 0 t) (iblk2 (F := Ideal) V c 1 t) (2000 * t.val)
    (left_block2 V c t) (right_block2 V c t) ((cfg2.win 2).xinj (grid2.coords t) y) (((cfg2.win 2).blk t).view.emb y) ?_ ?_
  · show win2_2.index t 0 * 2000 + 1 * (y 0).val = 2000 * t.val + (y 0).val; rw [e4]; omega
  · show win2_2.index t 1 * 40 + 1 * (y 1).val = (y 1).val; rw [e5]; omega

/-- An index of the output array is in point t's block iff each coordinate is in the block's range on its axis. -/
theorem mem_blk2 (t : Fin cfg2.N) (i : S50000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v66).slice (win2_2.rect t)).set ↔ _
  rw [View.set_slice_whole, Rect.mem_set_unit]
  exact Iff.rfl

/-- The 25 bands tile the 50000 rows: row i 0 lies in the band of point (i 0) / 2000, and a band spans every column. -/
theorem cover2 (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have hN : grid2.N = 25 := N_2
  obtain ⟨t, ht⟩ : ∃ t : Fin cfg2.N, t.val = (i 0).val / 2000 :=
    ⟨⟨(i 0).val / 2000, by show (i 0).val / 2000 < grid2.N; rw [hN]; omega⟩, rfl⟩
  obtain ⟨-, -, -, -, e4, e5⟩ := index_facts2 t
  refine ⟨t, flush2_2 t, ?_⟩
  rw [mem_blk2]
  intro a
  match a with
  | ⟨0, _⟩ =>
    show win2_2.index t 0 * 2000 ≤ (i 0).val ∧ (i 0).val < win2_2.index t 0 * 2000 + 2000
    rw [e4, ht]; omega
  | ⟨1, _⟩ =>
    show win2_2.index t 1 * 40 ≤ (i 1).val ∧ (i 1).val < win2_2.index t 1 * 40 + 40
    rw [e5]; omega

/-- After the third region its output array is the product of its [50000, 128] input with the [128, 40] weight. -/
theorem final2 (c : Dev nD) :
    (dat2 (F := Ideal) V c).arrAt 2 cfg2.N
      = mm (M := 50000) (K := 128) (N := 40) (V c main_v65) (V c main_arg6) :=
  (dat2 (F := Ideal) V c).arrAt_eq_of_cover 2 (mm (M := 50000) (K := 128) (N := 40) (V c main_v65) (V c main_arg6))
    (fun t _ => flushed_eq2 V c t) cover2

end Cert.KernelIdeal.RegionValue

end
-- ==== Proof.KernelValue.lean ====
/-
  The program's result buffer as the network of its arguments.

  The buffers' contents at the nine boundaries of the program are followed from the launch to the return: the
  arguments are never written; the edges' endpoints and weights are built before the first region and never written
  again; each region leaves the product of its two inputs; each later stretch of host operations aggregates that
  product along the edges and adds the bias. Composed, the result buffer ends at the three-layer network of the
  arguments.
-/
import proofs.«106534_j31774168055916_1_alg».proof.Proof.Gen.KernelIdeal.Frame
import proofs.«106534_j31774168055916_1_alg».proof.Proof.KernelHost
import proofs.«106534_j31774168055916_1_alg».proof.Proof.RegionValue

set_option maxRecDepth 16384

noncomputable section

namespace Cert.KernelIdeal.KernelValue

open Idealize.ShloMosaic Idealize.ShloMosaic.TcCoe Idealize.ShloMosaic.StableHlo
open Cert.KernelIdeal Cert.KernelIdeal.Gen Cert.KernelIdeal.Layer Cert.KernelIdeal.KernelHost Cert.KernelIdeal.RegionValue
open Cert.Product

variable (m : (ℓ : Loc nD τ sig) → Buf (Elt Ideal) ℓ) (ρ : Dev nD → PrngReg) (c : Dev nD)

/-! ## The arguments are as launched at every boundary where they are read -/

theorem launch (b : Ref sig .tc) : W0 m ρ c (Proc.devRef .tc b) = m ((c.tc : Thread nD τ).loc b) := rfl

theorem arg0_at : W3 m ρ c (Proc.devRef .tc main_arg0) = m ((c.tc : Thread nD τ).loc main_arg0) :=
  ((keep0_2 (W2 m ρ c) main_arg0 (by decide)).trans ((keep0_1 (W1 m ρ c) main_arg0 (by decide)).trans ((keep0 (W0 m ρ c) main_arg0 (by decide))))).trans (launch m ρ c main_arg0)
theorem arg2_at : W3 m ρ c (Proc.devRef .tc main_arg2) = m ((c.tc : Thread nD τ).loc main_arg2) :=
  ((keep0_2 (W2 m ρ c) main_arg2 (by decide)).trans ((keep0_1 (W1 m ρ c) main_arg2 (by decide)).trans ((keep0 (W0 m ρ c) main_arg2 (by decide))))).trans (launch m ρ c main_arg2)
theorem arg3_at : W4 m ρ c (Proc.devRef .tc main_arg3) = m ((c.tc : Thread nD τ).loc main_arg3) :=
  ((W4_of_ne m ρ c main_arg3 (by decide)).trans ((keep0_2 (W2 m ρ c) main_arg3 (by decide)).trans ((keep0_1 (W1 m ρ c) main_arg3 (by decide)).trans ((keep0 (W0 m ρ c) main_arg3 (by decide)))))).trans (launch m ρ c main_arg3)
theorem arg4_at : W5 m ρ c (Proc.devRef .tc main_arg4) = m ((c.tc : Thread nD τ).loc main_arg4) :=
  ((keep1 (W4 m ρ c) main_arg4 (by decide)).trans ((W4_of_ne m ρ c main_arg4 (by decide)).trans ((keep0_2 (W2 m ρ c) main_arg4 (by decide)).trans ((keep0_1 (W1 m ρ c) main_arg4 (by decide)).trans ((keep0 (W0 m ρ c) main_arg4 (by decide))))))).trans (launch m ρ c main_arg4)
theorem arg5_at : W6 m ρ c (Proc.devRef .tc main_arg5) = m ((c.tc : Thread nD τ).loc main_arg5) :=
  ((W6_of_ne m ρ c main_arg5 (by decide)).trans ((keep1 (W4 m ρ c) main_arg5 (by decide)).trans ((W4_of_ne m ρ c main_arg5 (by decide)).trans ((keep0_2 (W2 m ρ c) main_arg5 (by decide)).trans ((keep0_1 (W1 m ρ c) main_arg5 (by decide)).trans ((keep0 (W0 m ρ c) main_arg5 (by decide)))))))).trans (launch m ρ c main_arg5)
theorem arg6_at : W7 m ρ c (Proc.devRef .tc main_arg6) = m ((c.tc : Thread nD τ).loc main_arg6) :=
  ((keep2 (W6 m ρ c) main_arg6 (by decide)).trans ((W6_of_ne m ρ c main_arg6 (by decide)).trans ((keep1 (W4 m ρ c) main_arg6 (by decide)).trans ((W4_of_ne m ρ c main_arg6 (by decide)).trans ((keep0_2 (W2 m ρ c) main_arg6 (by decide)).trans ((keep0_1 (W1 m ρ c) main_arg6 (by decide)).trans ((keep0 (W0 m ρ c) main_arg6 (by decide))))))))).trans (launch m ρ c main_arg6)
theorem arg7_at : W8 m ρ c (Proc.devRef .tc main_arg7) = m ((c.tc : Thread nD τ).loc main_arg7) :=
  ((W8_of_ne m ρ c main_arg7 (by decide)).trans ((keep2 (W6 m ρ c) main_arg7 (by decide)).trans ((W6_of_ne m ρ c main_arg7 (by decide)).trans ((keep1 (W4 m ρ c) main_arg7 (by decide)).trans ((W4_of_ne m ρ c main_arg7 (by decide)).trans ((keep0_2 (W2 m ρ c) main_arg7 (by decide)).trans ((keep0_1 (W1 m ρ c) main_arg7 (by decide)).trans ((keep0 (W0 m ρ c) main_arg7 (by decide)))))))))).trans (launch m ρ c main_arg7)

/-! ## The edges' endpoints, built once -/

theorem src1 : W1 m ρ c (Proc.devRef .tc main_v3) = srcOf (m ((c.tc : Thread nD τ).loc main_arg1)) :=
  (src_eq (W0 m ρ c)).trans (by rw [launch])
theorem dst1 : W1 m ρ c (Proc.devRef .tc main_v6) = dstOf (m ((c.tc : Thread nD τ).loc main_arg1)) :=
  (dst_eq (W0 m ρ c)).trans (by rw [launch])
theorem src2 : W2 m ρ c (Proc.devRef .tc main_v3) = srcOf (m ((c.tc : Thread nD τ).loc main_arg1)) :=
  ((keep0_1 (W1 m ρ c) main_v3 (by decide))).trans (src1 m ρ c)
theorem dst2 : W2 m ρ c (Proc.devRef .tc main_v6) = dstOf (m ((c.tc : Thread nD τ).loc main_arg1)) :=
  ((keep0_1 (W1 m ρ c) main_v6 (by decide))).trans (dst1 m ρ c)
theorem src4 : W4 m ρ c (Proc.devRef .tc main_v3) = srcOf (m ((c.tc : Thread nD τ).loc main_arg1)) :=
  ((W4_of_ne m ρ c main_v3 (by decide)).trans ((keep0_2 (W2 m ρ c) main_v3 (by decide)).trans ((keep0_1 (W1 m ρ c) main_v3 (by decide))))).trans (src1 m ρ c)
theorem dst4 : W4 m ρ c (Proc.devRef .tc main_v6) = dstOf (m ((c.tc : Thread nD τ).loc main_arg1)) :=
  ((W4_of_ne m ρ c main_v6 (by decide)).trans ((keep0_2 (W2 m ρ c) main_v6 (by decide)).trans ((keep0_1 (W1 m ρ c) main_v6 (by decide))))).trans (dst1 m ρ c)
theorem src6 : W6 m ρ c (Proc.devRef .tc main_v3) = srcOf (m ((c.tc : Thread nD τ).loc main_arg1)) :=
  ((W6_of_ne m ρ c main_v3 (by decide)).trans ((keep1 (W4 m ρ c) main_v3 (by decide)).trans ((W4_of_ne m ρ c main_v3 (by decide)).trans ((keep0_2 (W2 m ρ c) main_v3 (by decide)).trans ((keep0_1 (W1 m ρ c) main_v3 (by decide))))))).trans (src1 m ρ c)
theorem dst6 : W6 m ρ c (Proc.devRef .tc main_v6) = dstOf (m ((c.tc : Thread nD τ).loc main_arg1)) :=
  ((W6_of_ne m ρ c main_v6 (by decide)).trans ((keep1 (W4 m ρ c) main_v6 (by decide)).trans ((W4_of_ne m ρ c main_v6 (by decide)).trans ((keep0_2 (W2 m ρ c) main_v6 (by decide)).trans ((keep0_1 (W1 m ρ c) main_v6 (by decide))))))).trans (dst1 m ρ c)
theorem src8 : W8 m ρ c (Proc.devRef .tc main_v3) = srcOf (m ((c.tc : Thread nD τ).loc main_arg1)) :=
  ((W8_of_ne m ρ c main_v3 (by decide)).trans ((keep2 (W6 m ρ c) main_v3 (by decide)).trans ((W6_of_ne m ρ c main_v3 (by decide)).trans ((keep1 (W4 m ρ c) main_v3 (by decide)).trans ((W4_of_ne m ρ c main_v3 (by decide)).trans ((keep0_2 (W2 m ρ c) main_v3 (by decide)).trans ((keep0_1 (W1 m ρ c) main_v3 (by decide))))))))).trans (src1 m ρ c)
theorem dst8 : W8 m ρ c (Proc.devRef .tc main_v6) = dstOf (m ((c.tc : Thread nD τ).loc main_arg1)) :=
  ((W8_of_ne m ρ c main_v6 (by decide)).trans ((keep2 (W6 m ρ c) main_v6 (by decide)).trans ((W6_of_ne m ρ c main_v6 (by decide)).trans ((keep1 (W4 m ρ c) main_v6 (by decide)).trans ((W4_of_ne m ρ c main_v6 (by decide)).trans ((keep0_2 (W2 m ρ c) main_v6 (by decide)).trans ((keep0_1 (W1 m ρ c) main_v6 (by decide))))))))).trans (dst1 m ρ c)

/-! ## The edge weights, built once -/

theorem dinv2 : W2 m ρ c (Proc.devRef .tc main_v16) = dinvOf (degree (dstOf (m ((c.tc : Thread nD τ).loc main_arg1)))) := by
  refine (dinv_eq (W1 m ρ c)).trans ?_
  rw [show W1 m ρ c (Proc.devRef .tc main_v12) = _ from positive_eq (W0 m ρ c),
    show W1 m ρ c (Proc.devRef .tc main_v15) = _ from rsqrt_eq (W0 m ρ c),
    show W1 m ρ c (Proc.devRef .tc main_cst_3) = _ from zero_eq (W0 m ρ c), launch]
  rfl

theorem norm3 : W3 m ρ c (Proc.devRef .tc main_v31) = normOf (m ((c.tc : Thread nD τ).loc main_arg1)) := by
  refine (norm_eq (W2 m ρ c)).trans ?_
  rw [dinv2, src2, dst2]
  rfl
theorem norm4 : W4 m ρ c (Proc.devRef .tc main_v31) = normOf (m ((c.tc : Thread nD τ).loc main_arg1)) :=
  ((W4_of_ne m ρ c main_v31 (by decide))).trans (norm3 m ρ c)
theorem norm6 : W6 m ρ c (Proc.devRef .tc main_v31) = normOf (m ((c.tc : Thread nD τ).loc main_arg1)) :=
  ((W6_of_ne m ρ c main_v31 (by decide)).trans ((keep1 (W4 m ρ c) main_v31 (by decide)).trans ((W4_of_ne m ρ c main_v31 (by decide))))).trans (norm3 m ρ c)
theorem norm8 : W8 m ρ c (Proc.devRef .tc main_v31) = normOf (m ((c.tc : Thread nD τ).loc main_arg1)) :=
  ((W8_of_ne m ρ c main_v31 (by decide)).trans ((keep2 (W6 m ρ c) main_v31 (by decide)).trans ((W6_of_ne m ρ c main_v31 (by decide)).trans ((keep1 (W4 m ρ c) main_v31 (by decide)).trans ((W4_of_ne m ρ c main_v31 (by decide))))))).trans (norm3 m ρ c)

/-! ## The three layers -/

/-- The first region leaves the product of the node features with the first weight matrix. -/
theorem product1 : W4 m ρ c (Proc.devRef .tc main_v32)
    = mm (M := 50000) (K := 256) (N := 128) (m ((c.tc : Thread nD τ).loc main_arg0)) (m ((c.tc : Thread nD τ).loc main_arg2)) := by
  refine (W4_arr m ρ c 2).trans ((final0 (V3 m ρ) c).trans ?_)
  rw [show V3 m ρ c main_arg0 = _ from arg0_at m ρ c, show V3 m ρ c main_arg2 = _ from arg2_at m ρ c]

/-- The first layer's output. -/
theorem hidden1 : W5 m ρ c (Proc.devRef .tc main_v48)
    = aggregate128 (mm (M := 50000) (K := 256) (N := 128) (m ((c.tc : Thread nD τ).loc main_arg0)) (m ((c.tc : Thread nD τ).loc main_arg2)))
        (srcOf (m ((c.tc : Thread nD τ).loc main_arg1))) (dstOf (m ((c.tc : Thread nD τ).loc main_arg1))) (normOf (m ((c.tc : Thread nD τ).loc main_arg1))) (m ((c.tc : Thread nD τ).loc main_arg3)) := by
  refine (layer1_eq (W4 m ρ c)).trans ?_
  rw [product1, src4, dst4, norm4, arg3_at]

/-- The second region leaves the product of the first layer's output with the second weight matrix. -/
theorem product2 : W6 m ρ c (Proc.devRef .tc main_v49)
    = mm (M := 50000) (K := 128) (N := 128) (W5 m ρ c (Proc.devRef .tc main_v48)) (m ((c.tc : Thread nD τ).loc main_arg4)) := by
  refine (W6_arr m ρ c 2).trans ((final1 (V5 m ρ) c).trans ?_)
  rw [show V5 m ρ c main_arg4 = _ from arg4_at m ρ c]

/-- The second layer's output. -/
theorem hidden2 : W7 m ρ c (Proc.devRef .tc main_v65)
    = aggregate128 (mm (M := 50000) (K := 128) (N := 128) (W5 m ρ c (Proc.devRef .tc main_v48)) (m ((c.tc : Thread nD τ).loc main_arg4)))
        (srcOf (m ((c.tc : Thread nD τ).loc main_arg1))) (dstOf (m ((c.tc : Thread nD τ).loc main_arg1))) (normOf (m ((c.tc : Thread nD τ).loc main_arg1))) (m ((c.tc : Thread nD τ).loc main_arg5)) := by
  refine (layer2_eq (W6 m ρ c)).trans ?_
  rw [product2, src6, dst6, norm6, arg5_at]

/-- The third region leaves the product of the second layer's output with the third weight matrix. -/
theorem product3 : W8 m ρ c (Proc.devRef .tc main_v66)
    = mm (M := 50000) (K := 128) (N := 40) (W7 m ρ c (Proc.devRef .tc main_v65)) (m ((c.tc : Thread nD τ).loc main_arg6)) := by
  refine (W8_arr m ρ c 2).trans ((final2 (V7 m ρ) c).trans ?_)
  rw [show V7 m ρ c main_arg6 = _ from arg6_at m ρ c]

/-- THE RESULT: the result buffer ends at the three-layer network of the arguments. -/
theorem result_eq : W9 m ρ c (Proc.devRef .tc main_v82)
    = gcn (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  refine (layer3_eq (W8 m ρ c)).trans ?_
  rw [product3, hidden2, hidden1, src8, dst8, norm8, arg7_at]
  rfl

end Cert.KernelIdeal.KernelValue

end
-- ==== Proof.RefValue.lean ====
/-
  The reference program's result, read as the shared function of its arguments.

  The reference is one line of host operations: the edges' endpoints and the degrees' inverse square roots first, then
  three layers, each a matrix product followed by the edge weights and the aggregation along the edges. The line is
  cut after the first part and after each layer; each part is read from ANY buffer contents it starts from, and the
  four readings are composed. The host's matrix product is the product on the extended reals.
-/
import proofs.«106534_j31774168055916_1_alg».proof.Proof.RefRunPatched
import proofs.«106534_j31774168055916_1_alg».proof.Proof.Layer
import Idealize.ShloMosaic.Lib.Pipeline.Frame

set_option maxRecDepth 16384

noncomputable section

namespace Cert.ReferenceIdeal.RefValue

open Idealize.ShloMosaic Idealize.ShloMosaic.TcCoe Idealize.ShloMosaic.StableHlo
open Cert.ReferenceIdeal Cert.ReferenceIdeal.ValueP Cert.KernelIdeal.Layer

variable {F : FTy → Type} [FloatOps F]

/-! ## The line of operations in four parts -/

/-- The endpoints, the degrees and their inverse square roots. -/
abbrev head : List (HloOp τ sig (Elt F)) := (ops (F := F)).take 24
/-- The first layer: the product, the edge weights, the aggregation. -/
abbrev body1 : List (HloOp τ sig (Elt F)) := ((ops (F := F)).drop 24).take 39
/-- The second layer. -/
abbrev body2 : List (HloOp τ sig (Elt F)) := ((ops (F := F)).drop 63).take 39
/-- The third layer. -/
abbrev body3 : List (HloOp τ sig (Elt F)) := (ops (F := F)).drop 102

theorem ops_eq : ops (F := F) = head ++ (body1 ++ (body2 ++ body3)) := rfl

/-! ## What a part does not write, it keeps -/

/-- A buffer that this part of the program does not write keeps its contents across it. -/
theorem keep_head (W : Valuation τ sig (Elt F)) (b : Ref sig .tc) (hb : b ∉ ([main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16] : List (Ref sig .tc))) :
    StableHlo.after (head (F := F)) W (Proc.devRef .tc b) = W (Proc.devRef .tc b) :=
  StableHlo.after_of_forall_not_mem (b := Proc.devRef .tc b) _ _ (List.forall_iff_forall_mem.mp (by
    simp only [head, ops, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact hb (by decide))))

/-- A buffer that this part of the program does not write keeps its contents across it. -/
theorem keep_body1 (W : Valuation τ sig (Elt F)) (b : Ref sig .tc) (hb : b ∉ ([main_v17, main_c, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_v46, main_v47, main_v48] : List (Ref sig .tc))) :
    StableHlo.after (body1 (F := F)) W (Proc.devRef .tc b) = W (Proc.devRef .tc b) :=
  StableHlo.after_of_forall_not_mem (b := Proc.devRef .tc b) _ _ (List.forall_iff_forall_mem.mp (by
    simp only [body1, ops, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact hb (by decide))))

/-- A buffer that this part of the program does not write keeps its contents across it. -/
theorem keep_body2 (W : Valuation τ sig (Elt F)) (b : Ref sig .tc) (hb : b ∉ ([main_v49, main_c_10, main_v50, main_v51, main_c_11, main_v52, main_v53, main_v54, main_v55, main_v56, main_c_12, main_v57, main_v58, main_c_13, main_v59, main_v60, main_v61, main_v62, main_v63, main_v64, main_c_14, main_v65, main_v66, main_c_15, main_v67, main_v68, main_v69, main_v70, main_v71, main_v72, main_v73, main_v74, main_cst_16, main_v75, main_v76, main_v77, main_v78, main_v79, main_v80] : List (Ref sig .tc))) :
    StableHlo.after (body2 (F := F)) W (Proc.devRef .tc b) = W (Proc.devRef .tc b) :=
  StableHlo.after_of_forall_not_mem (b := Proc.devRef .tc b) _ _ (List.forall_iff_forall_mem.mp (by
    simp only [body2, ops, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact hb (by decide))))

/-! ## Each part, read -/

variable (W : Valuation τ sig (Elt F))

set_option maxHeartbeats 8000000 in
theorem head_src : StableHlo.after (head (F := F)) W (Proc.devRef .tc main_v3) = srcOf (W (Proc.devRef .tc main_arg1)) := by
  simp only [head, ops, List.take_succ_cons, List.take_zero]
  after_results
  first | rfl | skip

set_option maxHeartbeats 8000000 in
theorem head_dst : StableHlo.after (head (F := F)) W (Proc.devRef .tc main_v6) = dstOf (W (Proc.devRef .tc main_arg1)) := by
  simp only [head, ops, List.take_succ_cons, List.take_zero]
  after_results
  first | rfl | skip

set_option maxHeartbeats 16000000 in
theorem head_dinv : StableHlo.after (head (F := F)) W (Proc.devRef .tc main_v16) = dinvOf (degree (dstOf (W (Proc.devRef .tc main_arg1)))) := by
  simp only [head, ops, List.take_succ_cons, List.take_zero]
  after_results
  first | rfl | skip

set_option maxHeartbeats 16000000 in
theorem body1_eq : StableHlo.after (body1 (F := F)) W (Proc.devRef .tc main_v48)
    = aggregate128 (Host.dotGeneral dot_S50000x256_S256x128_S50000x128_1_0_0_1_n_n none (W (Proc.devRef .tc main_arg0)) (W (Proc.devRef .tc main_arg2)))
        (W (Proc.devRef .tc main_v3)) (W (Proc.devRef .tc main_v6))
        (edgeNorm (W (Proc.devRef .tc main_v16)) (W (Proc.devRef .tc main_v3)) (W (Proc.devRef .tc main_v6))) (W (Proc.devRef .tc main_arg3)) := by
  simp only [body1, ops, List.take_succ_cons, List.take_zero, List.drop_succ_cons, List.drop_zero]
  after_results_simp
  first | rfl | skip

set_option maxHeartbeats 16000000 in
theorem body2_eq : StableHlo.after (body2 (F := F)) W (Proc.devRef .tc main_v80)
    = aggregate128 (Host.dotGeneral dot_S50000x128_S128x128_S50000x128_1_0_0_1_n_n none (W (Proc.devRef .tc main_v48)) (W (Proc.devRef .tc main_arg4)))
        (W (Proc.devRef .tc main_v3)) (W (Proc.devRef .tc main_v6))
        (edgeNorm (W (Proc.devRef .tc main_v16)) (W (Proc.devRef .tc main_v3)) (W (Proc.devRef .tc main_v6))) (W (Proc.devRef .tc main_arg5)) := by
  simp only [body2, ops, List.take_succ_cons, List.take_zero, List.drop_succ_cons, List.drop_zero]
  after_results_simp
  first | rfl | skip

set_option maxHeartbeats 16000000 in
theorem body3_eq : StableHlo.after (body3 (F := F)) W (Proc.devRef .tc main_v112)
    = aggregate40 (Host.dotGeneral dot_S50000x128_S128x40_S50000x40_1_0_0_1_n_n none (W (Proc.devRef .tc main_v80)) (W (Proc.devRef .tc main_arg6)))
        (W (Proc.devRef .tc main_v3)) (W (Proc.devRef .tc main_v6))
        (edgeNorm (W (Proc.devRef .tc main_v16)) (W (Proc.devRef .tc main_v3)) (W (Proc.devRef .tc main_v6))) (W (Proc.devRef .tc main_arg7)) := by
  simp only [body3, ops, List.drop_succ_cons, List.drop_zero]
  after_results_simp
  first | rfl | skip

/-! ## The four parts composed -/

section Composed

variable (m : (ℓ : Loc nD τ sig) → Buf (Elt Ideal) ℓ) (c : Dev nD)

/-- The buffers after the first part, after the first layer, after the second layer. -/
abbrev V1 : Valuation τ sig (Elt Ideal) := StableHlo.after (head (F := Ideal)) (launchContents m c)
abbrev V2 : Valuation τ sig (Elt Ideal) := StableHlo.after (body1 (F := Ideal)) (V1 m c)
abbrev V3 : Valuation τ sig (Elt Ideal) := StableHlo.after (body2 (F := Ideal)) (V2 m c)

theorem launched (b : Ref sig .tc) : launchContents m c (Proc.devRef .tc b) = m ((c.tc : Thread nD τ).loc b) := rfl

theorem arg_at1 (b : Ref sig .tc) (hb : b ∉ ([main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16] : List (Ref sig .tc))) :
    V1 m c (Proc.devRef .tc b) = m ((c.tc : Thread nD τ).loc b) :=
  (keep_head (launchContents m c) b hb).trans (launched m c b)

theorem src_at1 : V1 m c (Proc.devRef .tc main_v3) = srcOf (m ((c.tc : Thread nD τ).loc main_arg1)) := (head_src (launchContents m c)).trans (by rw [launched])
theorem dst_at1 : V1 m c (Proc.devRef .tc main_v6) = dstOf (m ((c.tc : Thread nD τ).loc main_arg1)) := (head_dst (launchContents m c)).trans (by rw [launched])
theorem dinv_at1 : V1 m c (Proc.devRef .tc main_v16) = dinvOf (degree (dstOf (m ((c.tc : Thread nD τ).loc main_arg1)))) :=
  (head_dinv (launchContents m c)).trans (by rw [launched])

/-- The first layer's output. -/
theorem hidden1 : V2 m c (Proc.devRef .tc main_v48)
    = aggregate128 (Cert.Product.mm (M := 50000) (K := 256) (N := 128) (m ((c.tc : Thread nD τ).loc main_arg0)) (m ((c.tc : Thread nD τ).loc main_arg2)))
        (srcOf (m ((c.tc : Thread nD τ).loc main_arg1))) (dstOf (m ((c.tc : Thread nD τ).loc main_arg1))) (normOf (m ((c.tc : Thread nD τ).loc main_arg1))) (m ((c.tc : Thread nD τ).loc main_arg3)) := by
  refine (body1_eq (V1 m c)).trans ?_
  rw [arg_at1 m c main_arg0 (by decide), arg_at1 m c main_arg2 (by decide), arg_at1 m c main_arg3 (by decide),
    src_at1, dst_at1, dinv_at1,
    Cert.Product.dotGeneral_eq_mm dot_S50000x256_S256x128_S50000x128_1_0_0_1_n_n rfl rfl rfl rfl rfl rfl]
  rfl

theorem src_at2 : V2 m c (Proc.devRef .tc main_v3) = srcOf (m ((c.tc : Thread nD τ).loc main_arg1)) := (keep_body1 (V1 m c) main_v3 (by decide)).trans (src_at1 m c)
theorem dst_at2 : V2 m c (Proc.devRef .tc main_v6) = dstOf (m ((c.tc : Thread nD τ).loc main_arg1)) := (keep_body1 (V1 m c) main_v6 (by decide)).trans (dst_at1 m c)
theorem dinv_at2 : V2 m c (Proc.devRef .tc main_v16) = dinvOf (degree (dstOf (m ((c.tc : Thread nD τ).loc main_arg1)))) :=
  (keep_body1 (V1 m c) main_v16 (by decide)).trans (dinv_at1 m c)
theorem arg_at2 (b : Ref sig .tc) (hb : b ∉ ([main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16] : List (Ref sig .tc)))
    (hb' : b ∉ ([main_v17, main_c, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_v46, main_v47, main_v48] : List (Ref sig .tc))) :
    V2 m c (Proc.devRef .tc b) = m ((c.tc : Thread nD τ).loc b) :=
  (keep_body1 (V1 m c) b hb').trans (arg_at1 m c b hb)

/-- The second layer's output. -/
theorem hidden2 : V3 m c (Proc.devRef .tc main_v80)
    = aggregate128 (Cert.Product.mm (M := 50000) (K := 128) (N := 128) (V2 m c (Proc.devRef .tc main_v48)) (m ((c.tc : Thread nD τ).loc main_arg4)))
        (srcOf (m ((c.tc : Thread nD τ).loc main_arg1))) (dstOf (m ((c.tc : Thread nD τ).loc main_arg1))) (normOf (m ((c.tc : Thread nD τ).loc main_arg1))) (m ((c.tc : Thread nD τ).loc main_arg5)) := by
  refine (body2_eq (V2 m c)).trans ?_
  rw [arg_at2 m c main_arg4 (by decide) (by decide), arg_at2 m c main_arg5 (by decide) (by decide),
    src_at2, dst_at2, dinv_at2,
    Cert.Product.dotGeneral_eq_mm dot_S50000x128_S128x128_S50000x128_1_0_0_1_n_n rfl rfl rfl rfl rfl rfl]
  rfl

theorem src_at3 : V3 m c (Proc.devRef .tc main_v3) = srcOf (m ((c.tc : Thread nD τ).loc main_arg1)) := (keep_body2 (V2 m c) main_v3 (by decide)).trans (src_at2 m c)
theorem dst_at3 : V3 m c (Proc.devRef .tc main_v6) = dstOf (m ((c.tc : Thread nD τ).loc main_arg1)) := (keep_body2 (V2 m c) main_v6 (by decide)).trans (dst_at2 m c)
theorem dinv_at3 : V3 m c (Proc.devRef .tc main_v16) = dinvOf (degree (dstOf (m ((c.tc : Thread nD τ).loc main_arg1)))) :=
  (keep_body2 (V2 m c) main_v16 (by decide)).trans (dinv_at2 m c)
theorem arg_at3 (b : Ref sig .tc) (hb : b ∉ ([main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16] : List (Ref sig .tc)))
    (hb' : b ∉ ([main_v17, main_c, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_v46, main_v47, main_v48] : List (Ref sig .tc)))
    (hb'' : b ∉ ([main_v49, main_c_10, main_v50, main_v51, main_c_11, main_v52, main_v53, main_v54, main_v55, main_v56, main_c_12, main_v57, main_v58, main_c_13, main_v59, main_v60, main_v61, main_v62, main_v63, main_v64, main_c_14, main_v65, main_v66, main_c_15, main_v67, main_v68, main_v69, main_v70, main_v71, main_v72, main_v73, main_v74, main_cst_16, main_v75, main_v76, main_v77, main_v78, main_v79, main_v80] : List (Ref sig .tc))) :
    V3 m c (Proc.devRef .tc b) = m ((c.tc : Thread nD τ).loc b) :=
  (keep_body2 (V2 m c) b hb'').trans (arg_at2 m c b hb hb')

/-- THE RESULT: the reference's result buffer ends at the three-layer network of its arguments. -/
theorem ref_value : StableHlo.after (ops (F := Ideal)) (launchContents m c) (Proc.devRef .tc main_v112)
    = gcn (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  rw [ops_eq, StableHlo.after_append, StableHlo.after_append, StableHlo.after_append]
  refine (body3_eq (V3 m c)).trans ?_
  rw [arg_at3 m c main_arg6 (by decide) (by decide) (by decide), arg_at3 m c main_arg7 (by decide) (by decide) (by decide),
    src_at3, dst_at3, dinv_at3,
    Cert.Product.dotGeneral_eq_mm dot_S50000x128_S128x40_S50000x40_1_0_0_1_n_n rfl rfl rfl rfl rfl rfl,
    hidden2, hidden1]
  rfl

end Composed

end Cert.ReferenceIdeal.RefValue

end
-- ==== Proof.lean ====
/-
  A three-layer graph convolution on 50000 nodes and 800000 edges (plus one self loop per node), computed two ways.

  Both programs build, from the edge list, the source and destination node of every edge, the nodes' degrees, their
  inverse square roots (zero where the degree is zero) and the edge weights dinv(src) · dinv(dst); then three times:
  multiply the node features by a weight matrix, carry every source row scaled by the edge weight to the edge's
  destination and sum there, add a bias row. The reference multiplies with one matrix product on the host. The kernel
  multiplies a band of 2000 rows at a time on the matrix unit, after changing the float format of both factors, and
  computes the edge weights once instead of once per layer.

  On the extended reals a change of float format is the identity, a product into a zero accumulator and the host's
  product are the same sums, a band of rows of a product is the product of the band, and the 25 bands tile the rows:
  each region's output is the whole product of its inputs. Everything else is the same host function applied to the
  same values, so the two results are one function — the network `gcn` — of the arguments. No law of the extended reals
  beyond the meaning of the matrix product is used; the precondition is not needed.

  The frames of the two kernel programs are the generated ones; the reference's frame is its run with the result
  dropped; the idealization rewrote nothing, so there is nothing to preserve.
-/
import proofs.«106534_j31774168055916_1_alg».proof.Defs
import proofs.«106534_j31774168055916_1_alg».proof.Proof.Gen.Kernel
import proofs.«106534_j31774168055916_1_alg».proof.Proof.Gen.Kernel.Skeleton
import proofs.«106534_j31774168055916_1_alg».proof.Proof.Gen.Kernel.Launch
import proofs.«106534_j31774168055916_1_alg».proof.Proof.Gen.Kernel.Points
import proofs.«106534_j31774168055916_1_alg».proof.Proof.Gen.Kernel.Frame
import proofs.«106534_j31774168055916_1_alg».proof.Proof.Gen.KernelIdeal
import proofs.«106534_j31774168055916_1_alg».proof.Proof.Gen.KernelIdeal.Skeleton
import proofs.«106534_j31774168055916_1_alg».proof.Proof.Gen.KernelIdeal.Launch
import proofs.«106534_j31774168055916_1_alg».proof.Proof.Gen.KernelIdeal.Points
import proofs.«106534_j31774168055916_1_alg».proof.Proof.Gen.KernelIdeal.Frame
import proofs.«106534_j31774168055916_1_alg».proof.Proof.Gen.ReferenceIdeal
import proofs.«106534_j31774168055916_1_alg».proof.Proof.Gen.Pre_finite_inputs
import proofs.«106534_j31774168055916_1_alg».proof.Proof.KernelRun
import proofs.«106534_j31774168055916_1_alg».proof.Proof.KernelValue
import proofs.«106534_j31774168055916_1_alg».proof.Proof.RefRunPatched
import proofs.«106534_j31774168055916_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.KernelIdeal.Layer.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_eq m ρ c), (h c).2⟩)
      (Cert.KernelIdeal.KernelRun.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.RefValue.ref_value m' c, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
